-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S4096x1 : Shape := ⟨2, ![4096, 1]⟩
abbrev S4096x4095 : Shape := ⟨2, ![4096, 4095]⟩
abbrev S1x4096 : Shape := ⟨2, ![1, 4096]⟩
abbrev S512x4096 : Shape := ⟨2, ![512, 4096]⟩
abbrev S1x512 : Shape := ⟨2, ![1, 512]⟩
abbrev S512x512 : Shape := ⟨2, ![512, 512]⟩

abbrev nBuf : Space → Nat
  | .hbm => 10
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .bf16⟩
  | .hbm, ⟨4, _⟩ => ⟨S4096x4096, .bf16⟩
  | .hbm, ⟨5, _⟩ => ⟨S4096x1, .bf16⟩
  | .hbm, ⟨6, _⟩ => ⟨S4096x4095, .bf16⟩
  | .hbm, ⟨7, _⟩ => ⟨S4096x4096, .bf16⟩
  | .hbm, ⟨8, _⟩ => ⟨S1x4096, .f32⟩
  | .hbm, ⟨9, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  slices_S4096x4096_S4096x1_0_4095 : S4096x4096.Slices ![0, 4095] S4096x1
  slices_S4096x4096_S4096x4095_0_0 : S4096x4096.Slices ![0, 0] S4096x4095
  concatenates_S4096x1_S4096x4095_S4096x4096_d1 : Shape.Concatenates [S4096x1, S4096x4095] S4096x4096 1
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S8192x4096.size a
  hwx0_3 : ∀ i : grid0.Coords, EltTy.bits .f32 = 32 ∨ (Rect.block (s := S8192x4096) S512x512.size (cc0_transform_3 i) (hinb0_3 i)).WholeWords (EltTy.packing .f32)

variable [Facts₀]

def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S4096x1 : Shape := ⟨2, ![4096, 1]⟩
abbrev S4096x4095 : Shape := ⟨2, ![4096, 4095]⟩
abbrev S1x4096 : Shape := ⟨2, ![1, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x1, .f32⟩
  | .hbm, ⟨5, _⟩ => ⟨S4096x4095, .f32⟩
  | .hbm, ⟨6, _⟩ => ⟨S4096x4096, .f32⟩
  | .hbm, ⟨7, _⟩ => ⟨S8192x4096, .f32⟩
  | .hbm, ⟨8, _⟩ => ⟨S1x4096, .f32⟩
  | .hbm, ⟨9, _⟩ => ⟨S8192x4096, .f32⟩
  | .hbm, ⟨10, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  slices_S4096x4096_S4096x1_0_4095 : S4096x4096.Slices ![0, 4095] S4096x1
  slices_S4096x4096_S4096x4095_0_0 : S4096x4096.Slices ![0, 0] S4096x4095
  concatenates_S4096x1_S4096x4095_S4096x4096_d1 : Shape.Concatenates [S4096x1, S4096x4095] S4096x4096 1
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.RowsProduct.lean ====
/-
  The function both programs compute, index by index on the extended reals.

  A batch `x` of 8192 rows of length 4096 is multiplied against a 4096 × 4096 matrix `R`, contracting each
  row of `x` with each ROW of `R` over their 4096 entries, and a bias is added per output column:

      y[b, o] = (Σ_k x[b, k] · R[o, k]) + bias[o].

  `R` stands for the matrix of first rows of the circulant blocks (the parameter matrix with every row
  reversed and rotated by one place). It is kept as an ARGUMENT here: both programs build it from the
  parameter matrix by the same re-laying of entries, no arithmetic, so the two sides are compared with that
  array unopened. The sum is one sum over the whole contracted axis on both sides, in the same order of
  factors, so no law of the extended reals is needed to join them.
-/
import Idealize.ShloMosaic.PureOps.Ideal
import Idealize.ShloMosaic.Lib.ValueIdx

noncomputable section

open scoped BigOperators

namespace Cert.Circulant

open Idealize.ShloMosaic Idealize.ShloMosaic.ValueIdx

/-- Entry `(b, o)` is the contraction of row `b` of `x` with row `o` of `R`, plus `bias o`. -/
def rowsProduct (x : (⟨2, ![8192, 4096]⟩ : Shape).Idx → EReal) (R : (⟨2, ![4096, 4096]⟩ : Shape).Idx → EReal)
    (bias : (⟨1, ![4096]⟩ : Shape).Idx → EReal) : (⟨2, ![8192, 4096]⟩ : Shape).Idx → EReal :=
  fun i => (∑ k : Fin 4096, x (ix2 (i 0) k) * R (ix2 (i 1) k)) + bias (ix1 (i 1))

/-- The same, with the output index given by its two coordinates. -/
theorem rowsProduct_apply (x : (⟨2, ![8192, 4096]⟩ : Shape).Idx → EReal) (R : (⟨2, ![4096, 4096]⟩ : Shape).Idx → EReal)
    (bias : (⟨1, ![4096]⟩ : Shape).Idx → EReal) (b : Fin 8192) (o : Fin 4096) :
    rowsProduct x R bias (ix2 b o) = (∑ k : Fin 4096, x (ix2 b k) * R (ix2 o k)) + bias (ix1 o) := rfl

end Cert.Circulant

end
-- ==== Proof.BlockProduct.lean ====
/-
  One grid point's arithmetic, read at an entry.

  At a grid point the body holds a 512 × 4096 block `a` of the batch, a 512 × 4096 block `r` of the rows
  matrix and a 1 × 512 piece `β` of the bias, and stores the 512 × 512 block

      out[p, q] = (Σ_k a[p, k] · r[q, k]) + β[0, q].

  The matrix product contracts the SECOND axis of both operands (each row of `a` with each row of `r`) into
  a zero accumulator, so on the extended reals it is the plain sum over the 4096 contracted positions; the
  narrowing of `a` to the shorter float format is the identity there, the two shape casts are casts of a
  shape to itself, and the bias piece is repeated down the 512 rows.
-/
import proofs.«177503_j48713519071957_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.BlockProduct

open Cert.KernelIdeal Cert.KernelIdeal.Gen Idealize.ShloMosaic Idealize.ShloMosaic.ValueIdx

/-! ## The operand indices of the product at an output entry -/

/-- The left operand is read in the output entry's row … -/
theorem lhs_row (i : S512x512.Idx) (κ : dot_S512x4096_S512x4096_S512x512_1_1_0_0_n_n.contr.Idx) :
    (dot_S512x4096_S512x4096_S512x512_1_1_0_0_n_n.lhsIdx i κ 0).val = (i 0).val := by
  unfold DotDims.lhsIdx
  rw [dif_neg (show ¬(0 : Fin S512x4096.rank) ∈ dot_S512x4096_S512x4096_S512x512_1_1_0_0_n_n.lhsBatch by decide),
    dif_pos (show (0 : Fin S512x4096.rank) ∈ dot_S512x4096_S512x4096_S512x512_1_1_0_0_n_n.lhsNonContracting by decide)]
  rfl
/-- … at the contracted position; -/
theorem lhs_col (i : S512x512.Idx) (κ : dot_S512x4096_S512x4096_S512x512_1_1_0_0_n_n.contr.Idx) :
    (dot_S512x4096_S512x4096_S512x512_1_1_0_0_n_n.lhsIdx i κ 1).val = (κ ⟨0, by decide⟩).val :=
  dot_S512x4096_S512x4096_S512x512_1_1_0_0_n_n.lhsIdx_val_of_single rfl i κ
/-- the right operand in the row named by the output entry's COLUMN … -/
theorem rhs_row (i : S512x512.Idx) (κ : dot_S512x4096_S512x4096_S512x512_1_1_0_0_n_n.contr.Idx) :
    (dot_S512x4096_S512x4096_S512x512_1_1_0_0_n_n.rhsIdx i κ 0).val = (i 1).val := by
  unfold DotDims.rhsIdx
  rw [dif_neg (show ¬(0 : Fin S512x4096.rank) ∈ dot_S512x4096_S512x4096_S512x512_1_1_0_0_n_n.rhsBatch by decide),
    dif_pos (show (0 : Fin S512x4096.rank) ∈ dot_S512x4096_S512x4096_S512x512_1_1_0_0_n_n.rhsNonContracting by decide)]
  rfl
/-- … at the contracted position. -/
theorem rhs_col (i : S512x512.Idx) (κ : dot_S512x4096_S512x4096_S512x512_1_1_0_0_n_n.contr.Idx) :
    (dot_S512x4096_S512x4096_S512x512_1_1_0_0_n_n.rhsIdx i κ 1).val = (κ ⟨0, by decide⟩).val :=
  dot_S512x4096_S512x4096_S512x512_1_1_0_0_n_n.rhsIdx_val_of_single rfl i κ

/-! ## The product into the zero accumulator -/

/-- Entry `(p, q)` of the product is the sum over the 4096 contracted positions of row `p` of the left operand
    against row `q` of the right. -/
theorem product_at (l r : FVec Ideal S512x4096 .bf16) (p q : Fin 512) :
    matmul dot_S512x4096_S512x4096_S512x512_1_1_0_0_n_n none l r (constant (F := Ideal) S512x512 .f32 0x00000000#32) (ix2 p q)
      = ∑ k : Fin 4096, l (ix2 p k) * r (ix2 q k) := by
  simp only [matmul]
  rw [Ideal.matmul_constant_zero_apply,
    ← Equiv.sum_comp (contrEquiv1 dot_S512x4096_S512x4096_S512x512_1_1_0_0_n_n 4096 rfl rfl).symm]
  refine Finset.sum_congr rfl fun k _ => ?_
  have hk := contrEquiv1_symm_val dot_S512x4096_S512x4096_S512x512_1_1_0_0_n_n 4096 rfl rfl k
  have el : dot_S512x4096_S512x4096_S512x512_1_1_0_0_n_n.lhsIdx (ix2 p q)
      ((contrEquiv1 dot_S512x4096_S512x4096_S512x512_1_1_0_0_n_n 4096 rfl rfl).symm k) = ix2 p k :=
    funext fun a => Fin.ext (by
      match a with
      | ⟨0, _⟩ => exact lhs_row _ _
      | ⟨1, _⟩ => exact (lhs_col _ _).trans hk)
  have er : dot_S512x4096_S512x4096_S512x512_1_1_0_0_n_n.rhsIdx (ix2 p q)
      ((contrEquiv1 dot_S512x4096_S512x4096_S512x512_1_1_0_0_n_n 4096 rfl rfl).symm k) = ix2 q k :=
    funext fun a => Fin.ext (by
      match a with
      | ⟨0, _⟩ => exact rhs_row _ _
      | ⟨1, _⟩ => exact (rhs_col _ _).trans hk)
  rw [el, er]

/-! ## The bias piece repeated down the rows -/

/-- Entry `(p, q)` of the repeated bias piece is the piece's entry `(0, q)`. -/
theorem bias_at (β : FVec Ideal S1x512 .f32) (p q : Fin 512) :
    broadcastTo S512x512 β broadcasts_S1x512_S512x512 (ix2 p q) = β (ix2 (0 : Fin 1) q) :=
  broadcastTo_apply β broadcasts_S1x512_S512x512 (ix2 p q) (ix2 (0 : Fin 1) q) (fun a => by
    match a with
    | ⟨0, _⟩ => show (0 : Nat) = if (1 : Nat) = 1 then 0 else p.val; rw [if_pos rfl]
    | ⟨1, _⟩ => show q.val = if (512 : Nat) = 1 then 0 else q.val; rw [if_neg (by decide)])

/-! ## The stored block -/

/-- What the body stores, at entry `(p, q)`. -/
theorem stored_at (a : Vec Ideal S512x4096 .f32) (r : Vec Ideal S512x4096 .bf16) (β : Vec Ideal S1x512 .f32) (p q : Fin 512) :
    k0_pay1 (F := Ideal) a r β (ix2 p q) = (∑ k : Fin 4096, a (ix2 p k) * r (ix2 q k)) + β (ix2 (0 : Fin 1) q) := by
  unfold k0_pay1
  rw [shapeCast_self, shapeCast_self, shapeCast_self]
  refine (addf_apply _ _ _).trans ?_
  rw [bias_at]
  exact congrArg (· + β (ix2 (0 : Fin 1) q)) (product_at (truncf .bf16 a bitsLt_bf16_f32) r p q)

end Cert.KernelIdeal.BlockProduct

end
-- ==== Proof.RegionEntry.lean ====
/-
  What the grid finds in the two arrays the host writes before it starts.

  The rows matrix. The host narrows the parameter matrix to the shorter float format (the identity on the
  extended reals), reverses every row, and rotates every row one place to the right — printed as: the last
  column, then the first 4095 columns, joined side by side. No entry is computed, entries are only moved, so
  the result is named here as ONE function `rolledRows` of the parameter matrix and never opened: the
  reference builds its rows matrix by the same three steps.

  The bias. The host reshapes the 4096 bias entries into one row of 4096; entry `(0, o)` of that row is
  bias entry `o` (same row-major position).
-/
import proofs.«177503_j48713519071957_2_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal

noncomputable section

namespace Cert.KernelIdeal.RegionEntry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- Every row of `cmat` reversed, then rotated one place to the right: the last column of the reversed
    matrix followed by its first 4095 columns. -/
def rolledRows (cmat : S4096x4096.Idx → EReal) : S4096x4096.Idx → EReal :=
  concatenate S4096x4096 1
    [⟨S4096x1, extractStridedSlice S4096x1 ![0, 4095] (Host.reverse [1] cmat) slices_S4096x4096_S4096x1_0_4095⟩,
     ⟨S4096x4095, extractStridedSlice S4096x4095 ![0, 0] (Host.reverse [1] cmat) slices_S4096x4096_S4096x4095_0_0⟩]
    concatenates_S4096x1_S4096x4095_S4096x4096_d1

/-- The second operand's array, as the grid finds it, is `rolledRows` of the parameter matrix as launched
    (the narrowing in front of it changes nothing on the extended reals). -/
theorem rows_at_entry (c : Dev nD) :
    (V m c main_v2 : S4096x4096.Idx → EReal) = rolledRows (m ((c : Thread nD τ).loc main_arg1)) := by
  dsimp only [V]
  simp only [hostOps0, hostOps0_1, hostOps0_2, List.flatten_cons, List.flatten_nil, List.append_nil, List.cons_append,
    List.nil_append]
  after_results
  rfl

/-- The third operand's array, as the grid finds it, is the bias as launched, reshaped to one row. -/
theorem bias_row_at_entry (c : Dev nD) :
    (V m c main_v3 : S1x4096.Idx → EReal)
      = shapeCast S1x4096 (m ((c : Thread nD τ).loc main_arg2) : S4096.Idx → EReal) shapeCasts_S4096_S1x4096 := by
  dsimp only [V]
  simp only [hostOps0, hostOps0_1, hostOps0_2, List.flatten_cons, List.flatten_nil, List.append_nil, List.cons_append,
    List.nil_append]
  after_results
  rfl

/-- Entry `(0, o)` of a 4096-vector reshaped to one row is its entry `o`. -/
theorem row_of_vector_at (β : S4096.Idx → EReal) (o : Fin 4096) :
    shapeCast S1x4096 β shapeCasts_S4096_S1x4096 (ix2 (0 : Fin 1) o) = β (ix1 o) :=
  shapeCast_apply β shapeCasts_S4096_S1x4096 (ix2 (0 : Fin 1) o) (ix1 o) (by
    rw [Shape.rowMajor_val_one, Shape.rowMajor_val_two]
    show o.val = 0 * 4096 + o.val
    omega)

/-- So the bias row the grid finds, at `(0, o)`, is bias entry `o` as launched. -/
theorem bias_at_entry (c : Dev nD) (o : Fin 4096) :
    (V m c main_v3 : S1x4096.Idx → EReal) (ix2 (0 : Fin 1) o) = m ((c : Thread nD τ).loc main_arg2) (ix1 o) := by
  rw [bias_row_at_entry]
  exact row_of_vector_at _ o

end Cert.KernelIdeal.RegionEntry

end
-- ==== Proof.OutputArray.lean ====
/-
  From the blocks each grid point writes to the whole output array.

  The grid has 16 × 8 points. Point `(i, j)` holds rows `512 i … 512 i + 511` of the batch (all 4096
  columns), rows `512 j … 512 j + 511` of the rows matrix (all 4096 columns) and entries `512 j … 512 j + 511`
  of the bias row, and writes the 512 × 512 block of the output at block position `(i, j)`. So entry `(p, q)`
  of what it writes is the whole-array function `rowsProduct` at `(512 i + p, 512 j + q)`: every point writes
  a restriction of ONE function of the arrays. The 128 blocks tile the 8192 × 4096 output (the point covering
  entry `(b, o)` is `(b / 512, o / 512)`), so after the run the output array IS that function.
-/
import proofs.«177503_j48713519071957_2_alg».proof.Proof.Gen.KernelIdeal.Value
import proofs.«177503_j48713519071957_2_alg».proof.Proof.RowsProduct
import proofs.«177503_j48713519071957_2_alg».proof.Proof.BlockProduct
import proofs.«177503_j48713519071957_2_alg».proof.Proof.RegionEntry

noncomputable section

namespace Cert.KernelIdeal.OutputArray

open Cert.KernelIdeal Cert.KernelIdeal.Gen Idealize.ShloMosaic Idealize.ShloMosaic.TcCoe Idealize.SL.Sem
open Idealize.ShloMosaic.ValueIdx
open Idealize.ShloMosaic.Pipeline (Dat)
open Cert.Circulant (rowsProduct rowsProduct_apply)
open Cert.KernelIdeal.RegionEntry (rolledRows)

variable (m : (ℓ : Loc nD τ sig) → Buf (Elt Ideal) ℓ) (ρ : Dev nD → PrngReg)

theorem origin : (![0, 0] : Fin 2 → Nat) = fun _ => 0 := funext fun a => by fin_cases a <;> rfl

/-! ## Where each window's block sits, over the 128 grid points -/

/-- The batch block moves with the output block's row position and spans every column; the rows-matrix block
    and the bias piece move with the output block's COLUMN position; the output's block positions stay inside
    16 × 8. -/
theorem block_positions : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 15 ∧ win0_3.index t (1 : Fin 2) ≤ 7 :=
  (by decide +kernel : ∀ t : Fin grid0.N, _)

/-- Every block position of the 16 × 8 tiling is some grid point's. -/
theorem every_position : ∀ (q0 : Fin 16) (q1 : Fin 8), ∃ t : Fin cfg0.N, win0_3.index t = ![q0.val, q1.val] :=
  (by decide +kernel : ∀ (q0 : Fin 16) (q1 : Fin 8), ∃ t : Fin grid0.N, win0_3.index t = ![q0.val, q1.val])

/-! ## The three input blocks, read off the arrays the grid finds -/

/-- Row `p` of the batch block at point `t` is row `b` of the batch, `b` the row `p` of the output block. -/
theorem batch_block_at (c : Dev nD) (t : Fin cfg0.N) (p : Fin 512) (k : Fin 4096) (b : Fin 8192)
    (hb : b.val = win0_3.index t (0 : Fin 2) * 512 + p.val) :
    iblk m c 0 t (ix2 p k) = V m c main_arg0 (ix2 b k) := by
  obtain ⟨e0, e1, -⟩ := block_positions t
  show V m c main_arg0 (((cfg0.win 0).blk t).view.emb (ix2 p k)) = V m c main_arg0 (ix2 b k)
  refine congrArg (V m c main_arg0) (funext fun a => Fin.ext ?_)
  match a with
  | ⟨0, _⟩ => show win0_0.index t (0 : Fin 2) * 512 + 1 * p.val = b.val; omega
  | ⟨1, _⟩ => show win0_0.index t (1 : Fin 2) * 4096 + 1 * k.val = k.val; omega

/-- Row `q` of the rows-matrix block at point `t` is row `o` of the rows matrix, `o` the column `q` of the
    output block. -/
theorem rows_block_at (c : Dev nD) (t : Fin cfg0.N) (q : Fin 512) (k : Fin 4096) (o : Fin 4096)
    (ho : o.val = win0_3.index t (1 : Fin 2) * 512 + q.val) :
    iblk m c 1 t (ix2 q k) = V m c main_v2 (ix2 o k) := by
  obtain ⟨-, -, e2, e3, -⟩ := block_positions t
  show V m c main_v2 (((cfg0.win 1).blk t).view.emb (ix2 q k)) = V m c main_v2 (ix2 o k)
  refine congrArg (V m c main_v2) (funext fun a => Fin.ext ?_)
  match a with
  | ⟨0, _⟩ => show win0_1.index t (0 : Fin 2) * 512 + 1 * q.val = o.val; omega
  | ⟨1, _⟩ => show win0_1.index t (1 : Fin 2) * 4096 + 1 * k.val = k.val; omega

/-- Entry `q` of the bias piece at point `t` is entry `o` of the bias row. -/
theorem bias_piece_at (c : Dev nD) (t : Fin cfg0.N) (q : Fin 512) (o : Fin 4096)
    (ho : o.val = win0_3.index t (1 : Fin 2) * 512 + q.val) :
    iblk m c 2 t (ix2 (0 : Fin 1) q) = V m c main_v3 (ix2 (0 : Fin 1) o) := by
  obtain ⟨-, -, -, -, e4, e5, -⟩ := block_positions t
  show V m c main_v3 (((cfg0.win 2).blk t).view.emb (ix2 (0 : Fin 1) q)) = V m c main_v3 (ix2 (0 : Fin 1) o)
  refine congrArg (V m c main_v3) (funext fun a => Fin.ext ?_)
  match a with
  | ⟨0, _⟩ => show win0_2.index t (0 : Fin 2) * 1 + 1 * 0 = 0; omega
  | ⟨1, _⟩ => show win0_2.index t (1 : Fin 2) * 512 + 1 * q.val = o.val; omega

/-! ## One stored entry is one entry of the whole-array function -/

/-- Blocks that read the arrays `A`, `R`, `B` in row `b`, row `o` and entry `o` give, at `(p, q)`, the
    whole-array function at `(b, o)`. -/
theorem stored_entry (A : S8192x4096.Idx → EReal) (R : S4096x4096.Idx → EReal) (B : S1x4096.Idx → EReal)
    (a : Vec Ideal S512x4096 .f32) (r : Vec Ideal S512x4096 .bf16) (β : Vec Ideal S1x512 .f32)
    (p q : Fin 512) (b : Fin 8192) (o : Fin 4096)
    (ha : ∀ k : Fin 4096, a (ix2 p k) = A (ix2 b k)) (hr : ∀ k : Fin 4096, r (ix2 q k) = R (ix2 o k))
    (hβ : β (ix2 (0 : Fin 1) q) = B (ix2 (0 : Fin 1) o)) :
    k0_pay1 (F := Ideal) a r β (ix2 p q) = rowsProduct A R (fun j => B (ix2 (0 : Fin 1) (j 0))) (ix2 b o) := by
  rw [BlockProduct.stored_at, rowsProduct_apply, hβ]
  exact congrArg (· + B (ix2 (0 : Fin 1) o)) (Finset.sum_congr rfl fun k _ => by rw [ha k, hr k])

/-! ## What a point writes back -/

/-- Point `t` writes block `t` of `rowsProduct` of the arrays as the grid finds them. -/
theorem written_block (c : Dev nD) (t : Fin cfg0.N) :
    (dats m 0 c).flushed 3 t = ((cfg0.win 3).blk t).view.read (Elt Ideal)
      (rowsProduct (V m c main_arg0) (V m c main_v2) (fun j => V m c main_v3 (ix2 (0 : Fin 1) (j 0)))) := by
  rw [Value.flushed3]
  unfold out0_3
  rw [View.canon_unit_zero origin]
  simp only [View.ld_unit_zero (S := S512x4096) origin, View.ld_unit_zero (S := S1x512) origin]
  obtain ⟨-, -, -, -, -, -, e6, e7⟩ := block_positions t
  funext j
  have hj0 : (j 0).val < 512 := (j 0).isLt
  have hj1 : (j 1).val < 512 := (j 1).isLt
  obtain ⟨b, hb⟩ : ∃ b : Fin 8192, b.val = win0_3.index t (0 : Fin 2) * 512 + (j 0).val := ⟨⟨_, by omega⟩, rfl⟩
  obtain ⟨o, ho⟩ : ∃ o : Fin 4096, o.val = win0_3.index t (1 : Fin 2) * 512 + (j 1).val := ⟨⟨_, by omega⟩, rfl⟩
  have hemb : ((cfg0.win 3).blk t).view.emb j = ix2 b o := by
    funext a; apply Fin.ext
    match a with
    | ⟨0, _⟩ => show win0_3.index t (0 : Fin 2) * 512 + 1 * (j 0).val = b.val; omega
    | ⟨1, _⟩ => show win0_3.index t (1 : Fin 2) * 512 + 1 * (j 1).val = o.val; omega
  show k0_pay1 (F := Ideal) (iblk m c 0 t) (iblk m c 1 t) (iblk m c 2 t) j
    = rowsProduct (V m c main_arg0) (V m c main_v2) (fun j => V m c main_v3 (ix2 (0 : Fin 1) (j 0)))
        (((cfg0.win 3).blk t).view.emb j)
  rw [hemb]
  refine (congrArg (k0_pay1 (F := Ideal) (iblk m c 0 t) (iblk m c 1 t) (iblk m c 2 t)) (eq_ix2 j)).trans ?_
  exact stored_entry (V m c main_arg0) (V m c main_v2) (V m c main_v3) (iblk m c 0 t) (iblk m c 1 t) (iblk m c 2 t)
    (j 0) (j 1) b o (fun k => batch_block_at m c t (j 0) k b hb) (fun k => rows_block_at m c t (j 1) k o ho)
    (bias_piece_at m c t (j 1) o ho)

/-! ## The blocks tile the output -/

/-- An entry of the output is in point `t`'s block iff each coordinate is in the block's range. -/
theorem mem_block (t : Fin cfg0.N) (i : S8192x4096.Idx) :
    i ∈ ((cfg0.win 3).blk t).view.set ↔ ∀ a : Fin 2, win0_3.index t a * S512x512.size a ≤ (i a).val
      ∧ (i a).val < win0_3.index t a * S512x512.size a + S512x512.size a := by
  show i ∈ ((View.whole main_v4).slice (win0_3.rect t)).set ↔ _
  rw [View.set_slice_whole, Rect.mem_set_unit]
  exact Iff.rfl

/-- Every entry `(b, o)` is in the block of the point at position `(b / 512, o / 512)`. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := every_position ⟨(i 0).val / 512, by omega⟩ ⟨(i 1).val / 512, by omega⟩
  have q0 : win0_3.index t (0 : Fin 2) = (i 0).val / 512 := congrFun ht 0
  have q1 : win0_3.index t (1 : Fin 2) = (i 1).val / 512 := congrFun ht 1
  refine ⟨t, flush0_3 t, ?_⟩
  rw [mem_block]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 512 ≤ (i 1).val ∧ (i 1).val < win0_3.index t (1 : Fin 2) * 512 + 512
    omega

/-! ## The output array after the run -/

/-- The bias row the grid finds, read along its one row, is the bias as launched. -/
theorem bias_along_row (c : Dev nD) :
    (fun j : S4096.Idx => (V m c main_v3 : S1x4096.Idx → EReal) (ix2 (0 : Fin 1) (j 0)))
      = m ((c : Thread nD τ).loc main_arg2) := by
  funext j
  rw [RegionEntry.bias_at_entry m c (j 0)]
  exact congrArg (m ((c : Thread nD τ).loc main_arg2)) (eq_ix1 j).symm

/-- After the run the output array is `rowsProduct` of the batch, the rolled rows of the parameter matrix and
    the bias, all as launched. -/
theorem output_array (c : Dev nD) :
    (dats m 0 c).arrAt 3 cfg0.N
      = rowsProduct (m ((c : Thread nD τ).loc main_arg0)) (rolledRows (m ((c : Thread nD τ).loc main_arg1)))
          (m ((c : Thread nD τ).loc main_arg2)) := by
  rw [(dats m 0 c).arrAt_eq_of_cover 3 _ (fun t _ => written_block m c t) covered,
    V_main_arg0, RegionEntry.rows_at_entry, bias_along_row]

/-- The run, with the output array named as that function and the arguments unchanged. -/
theorem run : θ_run defs (onTc (τ := τ) (main (F := Ideal))) ⟨m, fun _ => 0, ρ⟩ fun r => ∀ c : Dev nD,
      r.2.mem ((c : Thread nD τ).loc main_v4)
        = rowsProduct (m ((c : Thread nD τ).loc main_arg0)) (rolledRows (m ((c : Thread nD τ).loc main_arg1)))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (output_array m c), (h c).2⟩) (Value.run_blocks m ρ)

end Cert.KernelIdeal.OutputArray

end
-- ==== Proof.ReferenceTerm.lean ====
/-
  The reference's result, index by index.

  The reference reverses and rotates the rows of the parameter matrix (entries moved, none computed), takes the
  product of the batch with that matrix contracting the second axis of both, and adds the bias repeated down
  the 8192 rows. Read at entry `(b, o)` on the extended reals that is

      (Σ_k x[b, k] · rows[o, k]) + bias[o],

  which is `rowsProduct` of the batch, the reference's rows matrix (left unopened) and the bias.
-/
import proofs.«177503_j48713519071957_2_alg».proof.Proof.Gen.ReferenceIdeal.Read
import proofs.«177503_j48713519071957_2_alg».proof.Proof.RowsProduct

noncomputable section

namespace Cert.ReferenceIdeal.Term

open Cert.ReferenceIdeal Cert.ReferenceIdeal.Gen Cert.ReferenceIdeal.Read Idealize.ShloMosaic Idealize.ShloMosaic.ValueIdx
open Cert.Circulant (rowsProduct rowsProduct_apply)

/-- The product's left operand is read in row `b`, at the contracted position … -/
theorem left_index (b : Fin 8192) (o k : Fin 4096) : lidx_main_v2 (ix2 b o) k = ix2 b k :=
  funext fun a => Fin.ext (by match a with | ⟨0, _⟩ => rfl | ⟨1, _⟩ => rfl)
/-- … its right operand in row `o`, at the contracted position; -/
theorem right_index (b : Fin 8192) (o k : Fin 4096) : ridx_main_v2 (ix2 b o) k = ix2 o k :=
  funext fun a => Fin.ext (by match a with | ⟨0, _⟩ => rfl | ⟨1, _⟩ => rfl)
/-- and the bias, repeated down the rows, at entry `o`. -/
theorem bias_index (b : Fin 8192) (o : Fin 4096) : idx_main_v3 (idx_main_v4 (ix2 b o)) = ix1 o :=
  funext fun a => Fin.ext (by match a with | ⟨0, _⟩ => rfl)

/-- The reference's result is `rowsProduct` of its arguments, with its own rows matrix in the middle. -/
theorem result_eq (x : S8192x4096.Idx → EReal) (cmat : S4096x4096.Idx → EReal) (bias : S4096.Idx → EReal) :
    val_main_v5 (F := Ideal) x cmat bias = rowsProduct x (val_main_v1 (F := Ideal) cmat) bias := by
  funext i
  obtain ⟨b, o, rfl⟩ : ∃ (b : Fin 8192) (o : Fin 4096), i = ix2 b o := ⟨i 0, i 1, eq_ix2 i⟩
  rw [val_main_v5_apply, val_main_v2_apply, val_main_v4_apply, val_main_v3_apply, rowsProduct_apply, bias_index]
  simp only [left_index, right_index]
  rfl

end Cert.ReferenceIdeal.Term

end
-- ==== Proof.lean ====
/-
  A circulant linear layer as one dense product, against its plain reference.

  Output `o` of the layer on input row `x_b` is entry 0 of the circular convolution of parameter row `c_o` with
  `x_b`, which is the contraction of `x_b` with the first row of the circulant matrix of `c_o`: that row is `c_o`
  reversed and rotated one place. So with `rows` the parameter matrix re-laid that way,

      y[b, o] = (Σ_k x[b, k] · rows[o, k]) + bias[o].

  The kernel tiles the 8192 × 4096 output in 16 × 8 blocks of 512 × 512; each grid point contracts a 512-row
  block of the batch with a 512-row block of `rows` over ALL 4096 positions at once, into a zero accumulator,
  and adds its piece of the bias. The reference takes the same contraction as one whole product and adds the
  bias repeated down the rows. On the extended reals the two are the same sum, term for term and in the same
  order of factors, so nothing about finiteness is used: the kernel's narrowing of its operands to a shorter
  float format is the identity there, and both sides build `rows` by the same reverse / slice / join, which is
  carried through unopened.

  The modules: `RowsProduct` states the function; `BlockProduct` reads one grid point's stored block at an
  entry; `RegionEntry` says what the grid finds in the two arrays the host prepares; `OutputArray` shows each
  written block is a restriction of the function and that the blocks tile the output; `ReferenceTerm` reads
  the reference's result at an entry. Below, the two rows matrices are identified and the claims assembled.
-/
import proofs.«177503_j48713519071957_2_alg».proof.Defs
import proofs.«177503_j48713519071957_2_alg».proof.Proof.Gen.Kernel
import proofs.«177503_j48713519071957_2_alg».proof.Proof.Gen.Kernel.Skeleton
import proofs.«177503_j48713519071957_2_alg».proof.Proof.Gen.Kernel.Launch
import proofs.«177503_j48713519071957_2_alg».proof.Proof.Gen.Kernel.Points
import proofs.«177503_j48713519071957_2_alg».proof.Proof.Gen.Kernel.Frame
import proofs.«177503_j48713519071957_2_alg».proof.Proof.Gen.KernelIdeal
import proofs.«177503_j48713519071957_2_alg».proof.Proof.Gen.KernelIdeal.Skeleton
import proofs.«177503_j48713519071957_2_alg».proof.Proof.Gen.KernelIdeal.Launch
import proofs.«177503_j48713519071957_2_alg».proof.Proof.Gen.KernelIdeal.Points
import proofs.«177503_j48713519071957_2_alg».proof.Proof.Gen.KernelIdeal.Frame
import proofs.«177503_j48713519071957_2_alg».proof.Proof.Gen.ReferenceIdeal
import proofs.«177503_j48713519071957_2_alg».proof.Proof.Gen.Pre_finite_inputs
import proofs.«177503_j48713519071957_2_alg».proof.Proof.Gen.KernelIdeal.Value
import proofs.«177503_j48713519071957_2_alg».proof.Proof.Gen.ReferenceIdeal.Run
import proofs.«177503_j48713519071957_2_alg».proof.Proof.Gen.ReferenceIdeal.Read
import Idealize.ShloMosaic.Adequacy
import Idealize.ShloMosaic.Init
import proofs.«177503_j48713519071957_2_alg».proof.Proof.RowsProduct
import proofs.«177503_j48713519071957_2_alg».proof.Proof.OutputArray
import proofs.«177503_j48713519071957_2_alg».proof.Proof.ReferenceTerm

noncomputable section

namespace Cert.Proof

open Idealize.ShloMosaic Idealize.ShloMosaic.TcCoe Idealize.SL.Sem

/-- The reference's rows matrix and the kernel's are the same re-laying of the parameter matrix: each row
    reversed, then its last entry moved to the front. -/
theorem same_rows (cmat : Cert.KernelIdeal.S4096x4096.Idx → EReal) :
    Cert.ReferenceIdeal.Read.val_main_v1 (F := Ideal) cmat = Cert.KernelIdeal.RegionEntry.rolledRows cmat := rfl

/-- The reference run's result term is `rowsProduct` of the batch, the rolled rows and the bias. -/
theorem reference_result (x : Cert.KernelIdeal.S8192x4096.Idx → EReal) (cmat : Cert.KernelIdeal.S4096x4096.Idx → EReal)
    (bias : Cert.KernelIdeal.S4096.Idx → EReal) :
    Cert.ReferenceIdeal.Read.val_main_v5 (F := Ideal) x cmat bias
      = Cert.Circulant.rowsProduct x (Cert.KernelIdeal.RegionEntry.rolledRows cmat) bias :=
  (Cert.ReferenceIdeal.Term.result_eq x cmat bias).trans
    (congrArg (fun R => Cert.Circulant.rowsProduct x R bias) (same_rows cmat))

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing, so there is nothing to preserve. -/
theorem preserves : Cert.preserves_Kernel_KernelIdeal := trivial

/-- From memories agreeing on the three arguments, both programs end with the output array at `rowsProduct` of
    the batch, the rolled rows of the parameter matrix and the bias. -/
theorem algebraic : Cert.algebraic_KernelIdeal_ReferenceIdeal := by
  intro m ρ m' ρ' _ hagree
  refine ⟨_, Cert.KernelIdeal.OutputArray.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v5_eq]
  exact reference_result _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
